-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S4096x4096 : Shape := ⟨2, ![4096, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4096x1024 .f32) (main_arg1 : FVec F S4096x1024 .f32) (main_arg2 : FVec F S4096x1024 .f32) (main_arg3 : FVec F S4096 .f32) (main_arg4 : IVec S4096x4096 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4096x1024 : Shape := ⟨2, ![4096, 1024]⟩
abbrev S4096 : Shape := ⟨1, ![4096]⟩
abbrev S4096x4096 : Shape := ⟨2, ![4096, 4096]⟩
abbrev S1x4096 : Shape := ⟨2, ![1, 4096]⟩
abbrev S256x1024 : Shape := ⟨2, ![256, 1024]⟩
abbrev S1x256 : Shape := ⟨2, ![1, 256]⟩
abbrev S4096x256 : Shape := ⟨2, ![4096, 256]⟩
abbrev S256 : Shape := ⟨1, ![256]⟩
abbrev S256x1 : Shape := ⟨2, ![256, 1]⟩

abbrev nBuf : Space → Nat
  | .hbm => 8
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096, .f32⟩
  | .hbm, ⟨4, _⟩ => ⟨S4096x4096, .i32⟩
  | .hbm, ⟨5, _⟩ => ⟨S4096x1024, .bf16⟩
  | .hbm, ⟨6, _⟩ => ⟨S1x4096, .f32⟩
  | .hbm, ⟨7, _⟩ => ⟨S4096x4096, .f32⟩
  | .local _ .vmem, ⟨0, _⟩ => ⟨S4096x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S1x256, .f32⟩
  | .local _ .vmem, ⟨6, _⟩ => ⟨S1x256, .f32⟩
  | .local _ .vmem, ⟨7, _⟩ => ⟨S4096x256, .f32⟩
  | .local _ .vmem, ⟨8, _⟩ => ⟨S4096x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  reduces_S256x1024_S256 : S256x1024.Reduces [1] S256
  shapeCasts_S256_S256x1 : S256.ShapeCasts S256x1
  transposes_S256x1_p1_0_S1x256 : S256x1.Transposes [1, 0] S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  dot_S4096x1024_S256x1024_S4096x256_1_1_0_0_n_n_wf : DotDims.WF S4096x1024 S256x1024 S4096x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x1024.size a ≤ S4096x1024.size a
  hwx0_0 : ∀ i : grid0.Coords, EltTy.bits .bf16 = 32 ∨ (Rect.block (s := S4096x1024) S4096x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x4096.size a
  hwx0_3 : ∀ i : grid0.Coords, EltTy.bits .f32 = 32 ∨ (Rect.block (s := S1x4096) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S4096x4096.size a
  hwx0_4 : ∀ i : grid0.Coords, EltTy.bits .f32 = 32 ∨ (Rect.block (s := S4096x4096) S4096x256.size (cc0_transform_4 i) (hinb0_4 i)).WholeWords (EltTy.packing .f32)

variable [Facts₀]

def dot_S4096x1024_S256x1024_S4096x256_1_1_0_0_n_n : DotDims S4096x1024 S256x1024 S4096x256 where
  lhsContracting := [1]
  rhsContracting := [1]
  lhsNonContracting := [0]
  rhsNonContracting := [0]
  lhsBatch := []
  rhsBatch := []
  wf := dot_S4096x1024_S256x1024_S4096x256_1_1_0_0_n_n_wf

abbrev win0_0 : Pipeline.Window sig grid0 :=
  Pipeline.Window.ofSpec (Memref.whole main_v0) S4096x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S4096x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096 : Shape := ⟨1, ![4096]⟩
abbrev S4096x4096 : Shape := ⟨2, ![4096, 4096]⟩
abbrev S_ : Shape := ⟨0, ![]⟩
abbrev S1x4096 : Shape := ⟨2, ![1, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096, .f32⟩
  | .hbm, ⟨4, _⟩ => ⟨S4096x4096, .i32⟩
  | .hbm, ⟨5, _⟩ => ⟨S4096x4096, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S1x4096, .f32⟩
  | .hbm, ⟨11, _⟩ => ⟨S4096x4096, .f32⟩
  | .hbm, ⟨12, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x1024_S4096x1024_S4096x4096_1_1_0_0_n_n_wf : DotDims.WF S4096x1024 S4096x1024 S4096x4096 [1] [1] [0] [0] [] []

variable [Facts₀]

def dot_S4096x1024_S4096x1024_S4096x4096_1_1_0_0_n_n : DotDims S4096x1024 S4096x1024 S4096x4096 where
  lhsContracting := [1]
  rhsContracting := [1]
  lhsNonContracting := [0]
  rhsNonContracting := [0]
  lhsBatch := []
  rhsBatch := []
  wf := dot_S4096x1024_S4096x1024_S4096x4096_1_1_0_0_n_n_wf

class Facts : Prop extends Facts₀ where

variable [Facts]
-- ==== Proof.Payload.lean ====
/-
  What the kernel body stores, read at one element.

  At a grid point the body holds a [256, 1024] block Wb of the weights, the whole [4096, 1024] activations X (rounded
  to bf16, which on the extended reals changes nothing), the matching [256, 1024] block Eb of the label embeddings and
  the matching [1, 256] block bb of the bias.  It stores, at (p, q) of its [4096, 256] output block,

      ∑ₖ X[p, k] · Wb[q, k]  +  ( ∑ₖ Eb[q, k] · Wb[q, k]  +  bb[0, q] ):

  the matrix unit's product into a zero accumulator is the plain sum over the contracted coordinate; the lane
  reduction of Eb ∘ Wb along its second axis is the sum over that axis; the reshape to a column, the transpose to a
  row and the broadcast down the 4096 rows only move that one number to every row p.
-/
import proofs.«109765_j40733469836023_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The matrix unit's contraction record: rows of the left operand against rows of the right one. -/
abbrev D := dot_S4096x1024_S256x1024_S4096x256_1_1_0_0_n_n

theorem lhs_row (i : S4096x256.Idx) (u : D.contr.Idx) : (D.lhsIdx i u 0).val = (i 0).val := by
  unfold DotDims.lhsIdx
  rw [dif_neg (show ¬(0 : Fin S4096x1024.rank) ∈ D.lhsBatch by decide),
    dif_pos (show (0 : Fin S4096x1024.rank) ∈ D.lhsNonContracting by decide)]
  rfl

theorem lhs_col (i : S4096x256.Idx) (u : D.contr.Idx) : (D.lhsIdx i u 1).val = (u ⟨0, by decide⟩).val :=
  D.lhsIdx_val_of_single rfl i u

theorem rhs_row (i : S4096x256.Idx) (u : D.contr.Idx) : (D.rhsIdx i u 0).val = (i 1).val := by
  unfold DotDims.rhsIdx
  rw [dif_neg (show ¬(0 : Fin S256x1024.rank) ∈ D.rhsBatch by decide),
    dif_pos (show (0 : Fin S256x1024.rank) ∈ D.rhsNonContracting by decide)]
  rfl

theorem rhs_col (i : S4096x256.Idx) (u : D.contr.Idx) : (D.rhsIdx i u 1).val = (u ⟨0, by decide⟩).val :=
  D.rhsIdx_val_of_single rfl i u

/-- The product into a zero accumulator, at (p, q): row p of the left operand against row q of the right one. -/
theorem matmul_at (L : FVec Ideal S4096x1024 .bf16) (R : FVec Ideal S256x1024 .bf16) (p : Fin 4096) (q : Fin 256) :
    matmul D none L R (constant (F := Ideal) S4096x256 .f32 0x00000000#32) (ix2 p q)
      = ∑ k : Fin 1024, L (ix2 p k) * R (ix2 q k) := by
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx (ix2 p q) ((contrEquiv1 D 1024 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 1024 rfl rfl).symm k) = ix2 q k := funext fun a => Fin.ext (by
    match a with
    | ⟨0, _⟩ => exact rhs_row _ _
    | ⟨1, _⟩ => exact (rhs_col _ _).trans hk)
  rw [el, er]

/-- The lane reduction along the second axis, at q: the sum of row q. -/
theorem rowsum_at (v : FVec Ideal S256x1024 .f32) (hφ : FKind.Formats .f32)
    (hacc : (0x00000000#32 : BitVec 32) = FKind.add.neutral .f32 hφ) (q : Fin 256) :
    multiReduction .add [1] S256 v 0x00000000#32 reduces_S256x1024_S256 hφ hacc (ix1 q) = ∑ k : Fin 1024, v (ix2 q k) := by
  refine (Ideal.multiReduction_add_single v 0x00000000#32 reduces_S256x1024_S256 hφ hacc (ix1 q)).trans ?_
  refine Finset.sum_congr rfl fun k _ => congrArg v (funext fun a => Fin.ext ?_)
  match a with
  | ⟨0, _⟩ => rfl
  | ⟨1, _⟩ => rfl

/-- A [256] vector reshaped to a [256, 1] column reads, at (q, 0), the vector at q. -/
theorem column_at (v : FVec Ideal S256 .f32) (q : Fin 256) (u : Fin 1) :
    shapeCast S256x1 v shapeCasts_S256_S256x1 (ix2 q u) = v (ix1 q) :=
  shapeCast_apply v shapeCasts_S256_S256x1 _ _ (by
    have hu : u.val = 0 := by omega
    rw [Shape.rowMajor_val_two, Shape.rowMajor_val_one]
    show q.val = q.val * 1 + u.val
    omega)

/-- The stored value at (p, q) of the output block. -/
theorem pay_at (Wb : FVec Ideal S256x1024 .f32) (X : FVec Ideal S4096x1024 .bf16) (Eb : FVec Ideal S256x1024 .f32)
    (bb : FVec Ideal S1x256 .f32) (p : Fin 4096) (q : Fin 256) :
    k0_pay1 (F := Ideal) Wb X Eb bb (ix2 p q)
      = (∑ k : Fin 1024, X (ix2 p k) * Wb (ix2 q k))
        + ((∑ k : Fin 1024, Eb (ix2 q k) * Wb (ix2 q k)) + bb (ix2 (0 : Fin 1) q)) := by
  have eX : shapeCast S4096x1024 X shapeCasts_S4096x1024_S4096x1024 = X := shapeCast_self _ _
  have eb : shapeCast S1x256 bb shapeCasts_S1x256_S1x256 = bb := shapeCast_self _ _
  unfold k0_pay1
  dsimp only
  refine congrArg₂ (· + ·) ((matmul_at _ _ p q).trans (by rw [eX]; rfl)) ?_
  refine (broadcastTo_1b_ab_apply _ _ p q).trans ?_
  refine congrArg₂ (· + ·) ?_ (by rw [eb])
  refine (transpose_ix2_apply _ _ (0 : Fin 1) q).trans ?_
  refine (column_at _ q 0).trans ?_
  exact rowsum_at _ _ _ q

end Cert.KernelIdeal.Payload

end
-- ==== Proof.Spec.lean ====
/-
  The function both programs compute, stated once over the argument arrays.

  For activations x : [4096, 1024], label embeddings E : [4096, 1024], classifier weights W : [4096, 1024]
  and bias b : [4096], the logit at (row r, label l) is

      ∑ₖ x[r, k] · W[l, k]  +  ( ∑ₖ E[l, k] · W[l, k]  +  b[l] ).

  The first sum is row r of x against row l of W (the matrix product x · Wᵀ); the bracket depends on the
  label alone: the label's embedding against its own weight row, plus its bias.  Everything is read on the
  extended reals, where sums and products are the exact ones; no law beyond the two programs computing this
  same expression is used, so no input needs to be finite.
-/
import Idealize.ShloMosaic.PureOps.Ideal
import Idealize.ShloMosaic.Lib.ValueIdx

noncomputable section

open scoped BigOperators

namespace Cert.Logits

open Idealize.ShloMosaic Idealize.ShloMosaic.ValueIdx

/-- The label-only part of a logit: label `l`'s embedding row against its weight row, plus its bias. -/
def labelBias (E W : FVec Ideal ⟨2, ![4096, 1024]⟩ .f32) (b : FVec Ideal ⟨1, ![4096]⟩ .f32) (l : Fin 4096) : EReal :=
  (∑ k : Fin 1024, E (ix2 l k) * W (ix2 l k)) + b (ix1 l)

/-- The logit at row `r` and label `l`: row `r` of `x` against row `l` of `W`, plus the label's own part. -/
def logitAt (x E W : FVec Ideal ⟨2, ![4096, 1024]⟩ .f32) (b : FVec Ideal ⟨1, ![4096]⟩ .f32) (r l : Fin 4096) : EReal :=
  (∑ k : Fin 1024, x (ix2 r k) * W (ix2 l k)) + labelBias E W b l

/-- The whole [4096, 4096] array of logits. -/
def logits (x E W : FVec Ideal ⟨2, ![4096, 1024]⟩ .f32) (b : FVec Ideal ⟨1, ![4096]⟩ .f32) :
    FVec Ideal ⟨2, ![4096, 4096]⟩ .f32 :=
  fun i => logitAt x E W b (i 0) (i 1)

end Cert.Logits

end
-- ==== Proof.Blocks.lean ====
/-
  From the blocks the grid writes to the whole result array.

  The grid has 16 points; point t handles labels 256·t … 256·t + 255.  It is handed the whole activations (the host has
  rounded them to bf16 beforehand, the identity on the extended reals), rows 256·t … of the weights and of the label
  embeddings, and entries 256·t … of the bias (the host has reshaped the bias to one row beforehand), and it writes
  back the [4096, 256] block of columns 256·t … of the result.  By the payload lemma the entry (p, q) of that block is
  the logit at (p, 256·t + q); the sixteen column blocks tile the [4096, 4096] result, so the result array ends holding
  the logits.
-/
import proofs.«109765_j40733469836023_2_alg».proof.Proof.Gen.KernelIdeal.Value
import proofs.«109765_j40733469836023_2_alg».proof.Proof.Payload
import proofs.«109765_j40733469836023_2_alg».proof.Proof.Spec
import Idealize.ShloMosaic.Lib.Pipeline.Value
import Idealize.ShloMosaic.Lib.ValueLayout
import Idealize.ShloMosaic.Lib.StableHlo.Run
import Idealize.ShloMosaic.Lib.Tactic

noncomputable section

open scoped BigOperators

namespace Cert.KernelIdeal.Blocks

open Cert.KernelIdeal Cert.KernelIdeal.Gen Cert.KernelIdeal.Value Cert.KernelIdeal.Payload Cert.Logits
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block index of every window at grid point t: the activations stay at block (0, 0); the weights and the
    embeddings move down their rows with t; the bias row and the result move along their columns with t. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- What the kernel finds in its first operand: the activations, rounded to bf16 by the host. -/
theorem V_act (c : Dev nD) :
    V m c main_v0 = (truncf .bf16 (m ((c : Thread nD τ).loc main_arg0) : FVec Ideal S4096x1024 .f32) bitsLt_bf16_f32 : FVec Ideal S4096x1024 .bf16) := by
  dsimp only [Gen.V, Gen.hostOps0]; after_results

/-- What the kernel finds in its fourth operand: the bias, reshaped to one row by the host. -/
theorem V_bias (c : Dev nD) :
    V m c main_v1 = (shapeCast S1x4096 (m ((c : Thread nD τ).loc main_arg3) : FVec Ideal S4096 .f32) shapeCasts_S4096_S1x4096 : FVec Ideal S1x4096 .f32) := by
  dsimp only [Gen.V, Gen.hostOps0]; after_results; rfl

/-- The activations' block at any point, at (p, k), is the activations argument at (p, k). -/
theorem act_at (c : Dev nD) (t : Fin cfg0.N) (p : Fin 4096) (k : Fin 1024) :
    (iblk m c 0 t : FVec Ideal S4096x1024 .bf16) (ix2 p k)
      = (m ((c : Thread nD τ).loc main_arg0) : FVec Ideal S4096x1024 .f32) (ix2 p k) := by
  obtain ⟨e0, e1, -⟩ := idx_facts t
  unfold iblk
  rw [View.read_apply]
  show V m c main_v0 _ = _
  refine (congrFun (V_act m c) _).trans ?_
  show (m ((c : Thread nD τ).loc main_arg0) : FVec Ideal S4096x1024 .f32) _ = _
  congr 1
  funext a
  apply Fin.ext
  match a with
  | ⟨0, _⟩ => show win0_0.index t (0 : Fin 2) * 4096 + 1 * p.val = p.val; rw [e0]; omega
  | ⟨1, _⟩ => show win0_0.index t (1 : Fin 2) * 1024 + 1 * k.val = k.val; rw [e1]; omega

/-- The weights' block at point t, at (q, k), is the weights argument at row 256·t + q. -/
theorem wgt_at (c : Dev nD) (t : Fin cfg0.N) (q : Fin 256) (k : Fin 1024) (l : Fin 4096) (hl : l.val = t.val * 256 + q.val) :
    (iblk m c 1 t : FVec Ideal S256x1024 .f32) (ix2 q k)
      = (m ((c : Thread nD τ).loc main_arg2) : FVec Ideal S4096x1024 .f32) (ix2 l k) := by
  obtain ⟨-, -, e0, e1, -⟩ := idx_facts t
  unfold iblk
  rw [View.read_apply]
  show V m c main_arg2 _ = _
  refine (congrFun (V_main_arg2 m c) _).trans ?_
  show (m ((c : Thread nD τ).loc main_arg2) : FVec Ideal S4096x1024 .f32) _ = _
  congr 1
  funext a
  apply Fin.ext
  match a with
  | ⟨0, _⟩ => show win0_1.index t (0 : Fin 2) * 256 + 1 * q.val = l.val; rw [e0, hl]; omega
  | ⟨1, _⟩ => show win0_1.index t (1 : Fin 2) * 1024 + 1 * k.val = k.val; rw [e1]; omega

/-- The embeddings' block at point t, at (q, k), is the embeddings argument at row 256·t + q. -/
theorem emb_at (c : Dev nD) (t : Fin cfg0.N) (q : Fin 256) (k : Fin 1024) (l : Fin 4096) (hl : l.val = t.val * 256 + q.val) :
    (iblk m c 2 t : FVec Ideal S256x1024 .f32) (ix2 q k)
      = (m ((c : Thread nD τ).loc main_arg1) : FVec Ideal S4096x1024 .f32) (ix2 l k) := by
  obtain ⟨-, -, -, -, e0, e1, -⟩ := idx_facts t
  unfold iblk
  rw [View.read_apply]
  show V m c main_arg1 _ = _
  refine (congrFun (V_main_arg1 m c) _).trans ?_
  show (m ((c : Thread nD τ).loc main_arg1) : FVec Ideal S4096x1024 .f32) _ = _
  congr 1
  funext a
  apply Fin.ext
  match a with
  | ⟨0, _⟩ => show win0_2.index t (0 : Fin 2) * 256 + 1 * q.val = l.val; rw [e0, hl]; omega
  | ⟨1, _⟩ => show win0_2.index t (1 : Fin 2) * 1024 + 1 * k.val = k.val; rw [e1]; omega

/-- The bias row's block at point t, at (0, q), is the bias argument at 256·t + q. -/
theorem bias_at (c : Dev nD) (t : Fin cfg0.N) (q : Fin 256) (l : Fin 4096) (hl : l.val = t.val * 256 + q.val) :
    (iblk m c 3 t : FVec Ideal S1x256 .f32) (ix2 (0 : Fin 1) q)
      = (m ((c : Thread nD τ).loc main_arg3) : FVec Ideal S4096 .f32) (ix1 l) := by
  obtain ⟨-, -, -, -, -, -, e0, e1, -⟩ := idx_facts t
  unfold iblk
  rw [View.read_apply]
  show V m c main_v1 _ = _
  refine (congrFun (V_bias m c) _).trans ?_
  refine Eq.trans ?_ (shapeCast_a_1a_apply (m ((c : Thread nD τ).loc main_arg3) : FVec Ideal S4096 .f32) shapeCasts_S4096_S1x4096 (0 : Fin 1) l)
  congr 1
  funext a
  apply Fin.ext
  match a with
  | ⟨0, _⟩ => show win0_3.index t (0 : Fin 2) * 1 + 1 * 0 = 0; rw [e0]
  | ⟨1, _⟩ => show win0_3.index t (1 : Fin 2) * 256 + 1 * q.val = l.val; rw [e1, hl]; omega

/-- The result's block at point t, position (p, q), sits at (p, 256·t + q) of the result array. -/
theorem out_emb (t : Fin cfg0.N) (p : Fin 4096) (q : Fin 256) (l : Fin 4096) (hl : l.val = t.val * 256 + q.val) :
    ((cfg0.win 4).blk t).view.emb (ix2 p q) = ix2 p l := by
  obtain ⟨-, -, -, -, -, -, -, -, e0, e1⟩ := idx_facts t
  funext a
  apply Fin.ext
  match a with
  | ⟨0, _⟩ => show win0_4.index t (0 : Fin 2) * 4096 + 1 * p.val = p.val; rw [e0]; omega
  | ⟨1, _⟩ => show win0_4.index t (1 : Fin 2) * 256 + 1 * q.val = l.val; rw [e1, hl]; omega

/-- The logits of the four float arguments as launched on core c. -/
abbrev result (c : Dev nD) : FVec Ideal S4096x4096 .f32 :=
  logits (m ((c : Thread nD τ).loc main_arg0)) (m ((c : Thread nD τ).loc main_arg1))
    (m ((c : Thread nD τ).loc main_arg2)) (m ((c : Thread nD τ).loc main_arg3))

/-- What point t writes back is block t of the logits: entry (p, q) is the logit at (p, 256·t + q). -/
theorem flushed_eq (c : Dev nD) (t : Fin cfg0.N) :
    (dats m 0 c).flushed 4 t = ((cfg0.win 4).blk t).view.read (Elt Ideal) (result m c) := by
  have hN : cfg0.N = 16 := N_0
  rw [flushed4]
  unfold out0_4
  rw [View.canon_unit_zero hz]
  simp only [View.ld_unit_zero (S := S256x1024) hz, View.ld_unit_zero (S := S4096x1024) hz,
    View.ld_unit_zero (S := S1x256) hz]
  funext j
  obtain ⟨p, q, rfl⟩ : ∃ (p : Fin 4096) (q : Fin 256), j = ix2 p q := ⟨j 0, j 1, eq_ix2 j⟩
  have hlt : t.val * 256 + q.val < 4096 := by have := t.isLt; have := q.isLt; omega
  rw [View.read_apply, out_emb t p q ⟨t.val * 256 + q.val, hlt⟩ rfl]
  refine (pay_at (iblk m c 1 t) (iblk m c 0 t) (iblk m c 2 t) (iblk m c 3 t) p q).trans ?_
  show _ = logitAt _ _ _ _ p ⟨t.val * 256 + q.val, hlt⟩
  unfold logitAt labelBias
  refine congrArg₂ (· + ·) (Finset.sum_congr rfl fun k _ =>
    congrArg₂ (· * ·) (act_at m c t p k) (wgt_at m c t q k ⟨t.val * 256 + q.val, hlt⟩ rfl)) ?_
  exact congrArg₂ (· + ·) (Finset.sum_congr rfl fun k _ =>
    congrArg₂ (· * ·) (emb_at m c t q k ⟨t.val * 256 + q.val, hlt⟩ rfl) (wgt_at m c t q k ⟨t.val * 256 + q.val, hlt⟩ rfl))
    (bias_at m c t q ⟨t.val * 256 + q.val, hlt⟩ rfl)

/-- An index of the result is in point t's block iff each coordinate lies in the block's range on its axis. -/
theorem mem_blk (t : Fin cfg0.N) (i : S4096x4096.Idx) :
    i ∈ ((cfg0.win 4).blk t).view.set ↔ ∀ a : Fin 2, win0_4.index t a * S4096x256.size a ≤ (i a).val
      ∧ (i a).val < win0_4.index t a * S4096x256.size a + S4096x256.size a := by
  show i ∈ ((View.whole main_v2).slice (win0_4.rect t)).set ↔ _
  rw [View.set_slice_whole, Rect.mem_set_unit]
  exact Iff.rfl

/-- Every index (r, l) of the result is in the block of the point l / 256. -/
theorem cover (i : S4096x4096.Idx) :
    ∃ t : Fin cfg0.N, (cfg0.win 4).flush t = true ∧ i ∈ ((cfg0.win 4).blk t).view.set := by
  have hN : cfg0.N = 16 := N_0
  have h0 : (i 0).val < 4096 := (i 0).isLt
  have h1 : (i 1).val < 4096 := (i 1).isLt
  obtain ⟨t, ht⟩ : ∃ t : Fin cfg0.N, t.val = (i 1).val / 256 := ⟨⟨(i 1).val / 256, by rw [hN]; omega⟩, rfl⟩
  obtain ⟨-, -, -, -, -, -, -, -, e0, e1⟩ := idx_facts t
  refine ⟨t, flush0_4 t, ?_⟩
  rw [mem_blk]
  intro a
  match a with
  | ⟨0, _⟩ =>
    show win0_4.index t (0 : Fin 2) * 4096 ≤ (i 0).val ∧ (i 0).val < win0_4.index t (0 : Fin 2) * 4096 + 4096
    rw [e0]; omega
  | ⟨1, _⟩ =>
    show win0_4.index t (1 : Fin 2) * 256 ≤ (i 1).val ∧ (i 1).val < win0_4.index t (1 : Fin 2) * 256 + 256
    rw [e1, ht]; omega

/-- After the run the result array holds the logits. -/
theorem final (c : Dev nD) : (dats m 0 c).arrAt 4 cfg0.N = result m c :=
  (dats m 0 c).arrAt_eq_of_cover 4 (result m c) (fun t _ => flushed_eq m c t) cover

/-- The kernel program's run, read: it terminates with the result array at the logits of the arguments, the
    arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Blocks

end
-- ==== Proof.RefValue.lean ====
/-
  The reference program's result is the logits array.

  The reference computes, on the host, the matrix product x · Wᵀ, the row sums of E ∘ W (started from zero), adds the
  bias, broadcasts the resulting [4096] vector along the rows and adds it to the product.  Read at an index (r, l)
  every stage names one element of its operands: the product is ∑ₖ x[r, k] · W[l, k]; the two broadcasts read the
  vector at l; the row sum is 0 + ∑ₖ E[l, k] · W[l, k].  Dropping the zero gives the logit at (r, l).
-/
import proofs.«109765_j40733469836023_2_alg».proof.Proof.Gen.ReferenceIdeal.Read
import proofs.«109765_j40733469836023_2_alg».proof.Proof.Spec

noncomputable section

open scoped BigOperators

namespace Cert.ReferenceIdeal.RefValue

open Cert.ReferenceIdeal Cert.ReferenceIdeal.Read Idealize.ShloMosaic Idealize.ShloMosaic.ValueIdx Cert.Logits

/-- The left operand of the product at (r, l), contraction coordinate k, is x[r, k]. -/
theorem lidx_eq (r l : Fin 4096) (k : Fin 1024) : lidx_main_v0 (ix2 r l) k = ix2 r k :=
  funext fun a => Fin.ext (by match a with | ⟨0, _⟩ => rfl | ⟨1, _⟩ => rfl)

/-- The right operand of the product at (r, l), contraction coordinate k, is W[l, k]. -/
theorem ridx_eq (r l : Fin 4096) (k : Fin 1024) : ridx_main_v0 (ix2 r l) k = ix2 l k :=
  funext fun a => Fin.ext (by match a with | ⟨0, _⟩ => rfl | ⟨1, _⟩ => rfl)

/-- The two broadcasts read the label vector at the column coordinate l. -/
theorem bidx_eq (r l : Fin 4096) : idx_main_v4 (idx_main_v5 (ix2 r l)) = ix1 l :=
  funext fun a => Fin.ext (by match a with | ⟨0, _⟩ => rfl)

/-- The row sum at label l, summation coordinate k, reads (l, k). -/
theorem sidx_eq (l : Fin 4096) (k : Fin 1024) : idx_main_v2 (ix1 l) k = ix2 l k :=
  funext fun a => Fin.ext (by match a with | ⟨0, _⟩ => rfl | ⟨1, _⟩ => rfl)

/-- The reference's last stage, as a function of the four float arguments, is the logits array. -/
theorem val_eq_logits (x E W : FVec Ideal S4096x1024 .f32) (b : FVec Ideal S4096 .f32) :
    val_main_v6 (F := Ideal) x E W b = logits x E W b := by
  funext i
  obtain ⟨r, l, rfl⟩ : ∃ (r l : Fin 4096), i = ix2 r l := ⟨i 0, i 1, eq_ix2 i⟩
  rw [val_main_v6_apply, val_main_v0_apply, val_main_v5_apply, val_main_v4_apply, val_main_v3_apply, bidx_eq,
    val_main_v2_apply]
  simp only [val_main_v1_apply, val_main_cst_apply, lidx_eq, ridx_eq, sidx_eq, Ideal.addf_def, Ideal.mulf_def,
    Ideal.ofBits_def]
  show _ + ((Ideal.ofBits .f32 0x00000000#32 + _) + _) = _
  rw [Ideal.ofBits_zero_f32, zero_add]
  rfl

end Cert.ReferenceIdeal.RefValue

end
-- ==== Proof.lean ====
/-
  The certificate's five claims for the fused classifier kernel against its jnp reference.

  Both programs compute, for activations x, label embeddings E, classifier weights W and bias b, the array

      logits[r, l] = ∑ₖ x[r, k] · W[l, k] + ( ∑ₖ E[l, k] · W[l, k] + b[l] )

  (Proof/Spec.lean).  The kernel tiles the labels into sixteen blocks of 256 and computes, per block, the product of
  the activations with the block's weight rows on the matrix unit and the block's label-only terms on the vector
  unit (Proof/Payload.lean reads one stored element; Proof/Blocks.lean assembles the sixteen blocks into the whole
  array).  The reference computes the same expression with whole-array host operations (Proof/RefValue.lean).  On the
  extended reals the two are the same sums and products in the same association, so no finiteness of the inputs is
  used.  The three frame claims are the generated frame runs; the idealization rewrote nothing, so the preservation
  claim is trivial.
-/
import proofs.«109765_j40733469836023_2_alg».proof.Defs
import proofs.«109765_j40733469836023_2_alg».proof.Proof.Gen.Kernel
import proofs.«109765_j40733469836023_2_alg».proof.Proof.Gen.Kernel.Skeleton
import proofs.«109765_j40733469836023_2_alg».proof.Proof.Gen.Kernel.Launch
import proofs.«109765_j40733469836023_2_alg».proof.Proof.Gen.Kernel.Points
import proofs.«109765_j40733469836023_2_alg».proof.Proof.Gen.Kernel.Frame
import proofs.«109765_j40733469836023_2_alg».proof.Proof.Gen.KernelIdeal
import proofs.«109765_j40733469836023_2_alg».proof.Proof.Gen.KernelIdeal.Skeleton
import proofs.«109765_j40733469836023_2_alg».proof.Proof.Gen.KernelIdeal.Launch
import proofs.«109765_j40733469836023_2_alg».proof.Proof.Gen.KernelIdeal.Points
import proofs.«109765_j40733469836023_2_alg».proof.Proof.Gen.KernelIdeal.Frame
import proofs.«109765_j40733469836023_2_alg».proof.Proof.Gen.ReferenceIdeal
import proofs.«109765_j40733469836023_2_alg».proof.Proof.Gen.Pre_finite_inputs
import proofs.«109765_j40733469836023_2_alg».proof.Proof.Gen.KernelIdeal.Value
import proofs.«109765_j40733469836023_2_alg».proof.Proof.Gen.ReferenceIdeal.Run
import proofs.«109765_j40733469836023_2_alg».proof.Proof.Gen.ReferenceIdeal.Read
import proofs.«109765_j40733469836023_2_alg».proof.Proof.Blocks
import proofs.«109765_j40733469836023_2_alg».proof.Proof.RefValue
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories that agree on the arguments both programs end with the logits of those arguments in their result
    arrays: the kernel block by block, the reference stage by stage. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.val_eq_logits,
    (hagree c).1, (hagree c).2.1, (hagree c).2.2.1, (hagree c).2.2.2.1]

theorem claim : Cert.Claim := ⟨Cert.Kernel.Gen.facts, Cert.KernelIdeal.Gen.facts, Cert.ReferenceIdeal.Gen.facts,
  Cert.Pre_finite_inputs.Gen.facts, frame_kernel, frame_kernelIdeal, frame_reference, preserves, algebraic⟩

end Cert.Proof

end
